-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S8x512 : Shape := ⟨2, ![8, 512]⟩
abbrev S512x512 : Shape := ⟨2, ![512, 512]⟩
abbrev S512 : Shape := ⟨1, ![512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x8192x512 .f32) (main_arg1 : FVec F S8x512 .f32) (main_arg2 : FVec F S512x512 .f32) (main_arg3 : FVec F S512x512 .f32) (main_arg4 : FVec F S512 .f32) (main_arg5 : FVec F S512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S8x8192x512 : Shape := ⟨3, ![8, 8192, 512]⟩
abbrev S8x512 : Shape := ⟨2, ![8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8x1x512 : Shape := ⟨3, ![8, 1, 512]⟩
abbrev S512x1 : Shape := ⟨2, ![512, 1]⟩
abbrev S1x2048x512 : Shape := ⟨3, ![1, 2048, 512]⟩
abbrev S1x1x512 : Shape := ⟨3, ![1, 1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 32
  | .vmem => 8
  | .smem => 0
  | _ => 0

abbrev bufTy : (tb : Table) → Fin (tcTables nBuf tb) → BufTy
  | .hbm, ⟨0, _⟩ => ⟨S8x8192x512, .f32⟩
  | .hbm, ⟨1, _⟩ => ⟨S8x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S8x512, .f32⟩
  | .hbm, ⟨11, _⟩ => ⟨S1x512, .f32⟩
  | .hbm, ⟨12, _⟩ => ⟨S8x512, .f32⟩
  | .hbm, ⟨13, _⟩ => ⟨S8x512, .f32⟩
  | .hbm, ⟨14, _⟩ => ⟨S8x1x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S1x512, .f32⟩
  | .hbm, ⟨31, _⟩ => ⟨S8x8192x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S512x512, .bf16⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S512x512 : S_.BroadcastsInDim S512x512 (![] : Fin 0 → Fin S512x512.rank)
  transposes_S512x512_S512x512_1_0 : S512x512.Transposes [1, 0] S512x512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  shapeCasts_S8x512_S8x1x512 : S8x512.ShapeCasts S8x1x512
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S1x512 : S512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S2048x512_S1x2048x512 : S2048x512.ShapeCasts S1x2048x512
  dot_S8x512_S512x512_S8x512_1_0_0_1_n_n_wf : DotDims.WF S8x512 S512x512 S8x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x8192x512.size a
  hwx0_0 : ∀ i : grid0.Coords, EltTy.bits .f32 = 32 ∨ (Rect.block (s := S8x8192x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .f32 = 32 ∨ (Rect.block (s := S8x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x8192x512.size a
  hwx0_4 : ∀ i : grid0.Coords, EltTy.bits .f32 = 32 ∨ (Rect.block (s := S8x8192x512) S1x2048x512.size (cc0_transform_4 i) (hinb0_4 i)).WholeWords (EltTy.packing .f32)

variable [Facts₀]

def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S8x512 : Shape := ⟨2, ![8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8x1x512 : Shape := ⟨3, ![8, 1, 512]⟩
abbrev S65536x512 : Shape := ⟨2, ![65536, 512]⟩
abbrev S512x1 : Shape := ⟨2, ![512, 1]⟩
abbrev S65536 : Shape := ⟨1, ![65536]⟩
abbrev S65536x1 : Shape := ⟨2, ![65536, 1]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S8x512, .f32⟩
  | .hbm, ⟨11, _⟩ => ⟨S1x512, .f32⟩
  | .hbm, ⟨12, _⟩ => ⟨S8x512, .f32⟩
  | .hbm, ⟨13, _⟩ => ⟨S8x512, .f32⟩
  | .hbm, ⟨14, _⟩ => ⟨S8x1x512, .f32⟩
  | .hbm, ⟨15, _⟩ => ⟨S8x8192x512, .f32⟩
  | .hbm, ⟨16, _⟩ => ⟨S8x8192x512, .f32⟩
  | .hbm, ⟨17, _⟩ => ⟨S65536x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x512, .f32⟩
  | .hbm, ⟨30, _⟩ => ⟨S512x512, .f32⟩
  | .hbm, ⟨31, _⟩ => ⟨S65536x512, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x512, .f32⟩
  | .hbm, ⟨40, _⟩ => ⟨S65536x512, .f32⟩
  | .hbm, ⟨41, _⟩ => ⟨S512x512, .f32⟩
  | .hbm, ⟨42, _⟩ => ⟨S65536x512, .f32⟩
  | .hbm, ⟨43, _⟩ => ⟨S1x512, .f32⟩
  | .hbm, ⟨44, _⟩ => ⟨S65536x512, .f32⟩
  | .hbm, ⟨45, _⟩ => ⟨S65536x512, .f32⟩
  | .hbm, ⟨46, _⟩ => ⟨S_, .f32⟩
  | .hbm, ⟨47, _⟩ => ⟨S_, .f32⟩
  | .hbm, ⟨48, _⟩ => ⟨S65536x512, .f32⟩
  | .hbm, ⟨49, _⟩ => ⟨S65536x512, .i1⟩
  | .hbm, ⟨50, _⟩ => ⟨S_, .f32⟩
  | .hbm, ⟨51, _⟩ => ⟨S65536x512, .f32⟩
  | .hbm, ⟨52, _⟩ => ⟨S65536x512, .f32⟩
  | .hbm, ⟨53, _⟩ => ⟨S65536x512, .f32⟩
  | .hbm, ⟨54, _⟩ => ⟨S_, .f32⟩
  | .hbm, ⟨55, _⟩ => ⟨S65536x512, .f32⟩
  | .hbm, ⟨56, _⟩ => ⟨S65536x512, .f32⟩
  | .hbm, ⟨57, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  transposes_S512x512_S512x512_1_0 : S512x512.Transposes [1, 0] S512x512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x1x512_0_2 : S8x512.BroadcastsInDim S8x1x512 (![0, 2] : Fin 2 → Fin S8x1x512.rank)
  bcast_S8x1x512_S8x8192x512_0_1_2 : S8x1x512.BroadcastsInDim S8x8192x512 (![0, 1, 2] : Fin 3 → Fin S8x8192x512.rank)
  shapeCasts_S8x8192x512_S65536x512 : S8x8192x512.ShapeCasts S65536x512
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S65536x512_S65536_d1 : S65536x512.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  shapeCasts_S65536x512_S8x8192x512 : S65536x512.ShapeCasts S8x8192x512
  dot_S8x512_S512x512_S8x512_1_0_0_1_n_n_wf : DotDims.WF S8x512 S512x512 S8x512 [1] [0] [0] [1] [] []
  dot_S65536x512_S512x512_S65536x512_1_0_0_1_n_n_wf : DotDims.WF S65536x512 S512x512 S65536x512 [1] [0] [0] [1] [] []

variable [Facts₀]

def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.KerTerm.lean ====
/-
  The arrays the kernel's grid finds, as terms of the argument arrays.

  Before the grid runs, the program computes the modulation `gammaK` (the latent times the transposed, scaled modulation
  matrix, plus the bias laid along the rows) and lays it out with a unit middle axis (`arrG`); scales the weight and divides
  each of its rows by its root sum of squares (`wK`), then transposes it (`arrW`; the change of float format is the identity
  on extended reals); and lays the rectifier's bias out as one row (`arrB`).
-/
import proofs.«161681_j86079734546951_2_alg».proof.Proof.Gen.KernelIdeal
import Idealize.ShloMosaic.PureOps.Ideal

noncomputable section

namespace Cert.KernelIdeal.KerValue

open Cert.KernelIdeal Cert.KernelIdeal.Gen Idealize.ShloMosaic

/-- The modulation, 8 × 512. -/
def gammaK (z : FVec Ideal S8x512 .f32) (modw : FVec Ideal S512x512 .f32) (modb : FVec Ideal S512 .f32) :
    FVec Ideal S8x512 .f32 :=
  addf (Host.dotGeneral (F := Ideal) dot_S8x512_S512x512_S8x512_1_0_0_1_n_n none z
      (transpose S512x512 [1, 0] (mulf modw (broadcastInDim S512x512 ![] bcast_S_S512x512 (constant (F := Ideal) S_ .f32 0x3D3504F3#32)))
        transposes_S512x512_S512x512_1_0))
    (broadcastInDim S8x512 ![0, 1] bcast_S1x512_S8x512_0_1 (broadcastInDim S1x512 ![1] bcast_S512_S1x512_1 modb))

/-- The weight times the scale. -/
def wScaledK (weight : FVec Ideal S512x512 .f32) : FVec Ideal S512x512 .f32 :=
  mulf weight (broadcastInDim S512x512 ![] bcast_S_S512x512 (constant (F := Ideal) S_ .f32 0x3D3504F3#32))

/-- The scaled weight, each row divided by its root sum of squares. -/
def wK (weight : FVec Ideal S512x512 .f32) : FVec Ideal S512x512 .f32 :=
  mulf (wScaledK weight) (broadcastInDim S512x512 ![0, 1] bcast_S512x1_S512x512_0_1
    (Host.rsqrt (F := Ideal) (addf
      (broadcastInDim S512x1 ![0] bcast_S512_S512x1_0
        (Host.reduceAdd (F := Ideal) (mulf (wScaledK weight) (wScaledK weight)) (constant (F := Ideal) S_ .f32 0x00000000#32) reducesTo_S512x512_S512_d1 h_S_))
      (broadcastInDim S512x1 ![] bcast_S_S512x1 (constant (F := Ideal) S_ .f32 0x322BCC77#32)))))

/-- The modulation with a unit middle axis. -/
def arrG (γ : FVec Ideal S8x512 .f32) : FVec Ideal S8x1x512 .f32 :=
  shapeCast S8x1x512 γ shapeCasts_S8x512_S8x1x512

/-- The normalized weight transposed: entry `(c, o)` is entry `(o, c)` of `w`. -/
def arrW (w : FVec Ideal S512x512 .f32) : FVec Ideal S512x512 .bf16 :=
  truncf .bf16 (transpose S512x512 [1, 0] w transposes_S512x512_S512x512_1_0) bitsLt_bf16_f32

/-- The bias as one row. -/
def arrB (bias : FVec Ideal S512 .f32) : FVec Ideal S1x512 .f32 :=
  shapeCast S1x512 bias shapeCasts_S512_S1x512

end Cert.KernelIdeal.KerValue

end
-- ==== Proof.Spec.lean ====
/-
  The function both programs compute, index by index, over the extended reals.

  An input `x` of 8 batches × 8192 rows × 512 channels is scaled channel by channel by its batch's modulation vector
  `γ` (8 × 512); every row is then divided by its own root sum of squares (the reciprocal square root of the sum of the
  512 squares plus a small constant), multiplied into the 512 × 512 matrix `w` along the channels (entry `(o, c)` of `w`
  meets channel `c`), shifted by the bias of output channel `o`, and passed through a leaky rectifier with a gain.

  The rectifier is written in two ways by the two programs: "if `0 < v` then `v` else `v · slope`" and
  "if `0 ≤ v` then `v` else `slope · v`". They differ only at `v = 0`, where both give `0`, and in the order of a
  product (`rectifier_forms`). A sum that starts from the zero word is the plain sum (`zero_add_sum`).
-/
import Idealize.ShloMosaic.PureOps.Ideal
import Idealize.ShloMosaic.PureOps.Ideal.Laws
import Idealize.ShloMosaic.Lib.ValueIdx

noncomputable section

open scoped BigOperators

namespace Cert.ModLin

open Idealize.ShloMosaic Idealize.ShloMosaic.ValueIdx

/-- The input's and the result's shape, the modulation's, the weight's and the bias's. -/
abbrev SX : Shape := ⟨3, ![8, 8192, 512]⟩
abbrev SG : Shape := ⟨2, ![8, 512]⟩
abbrev SW : Shape := ⟨2, ![512, 512]⟩
abbrev SB : Shape := ⟨1, ![512]⟩

/-- The small constant under the root, the rectifier's slope and its gain, each the value of its binary word; and the
    zero word's value. -/
def eps : EReal := Ideal.ofBits .f32 0x322BCC77#32
def slope : EReal := Ideal.ofBits .f32 0x3E4CCCCD#32
def gain : EReal := Ideal.ofBits .f32 0x3FB504F3#32
def zero : EReal := Ideal.ofBits .f32 0x00000000#32

theorem zero_eq : zero = 0 := Ideal.ofBits_zero_f32

/-- The modulated input at batch `b`, row `n`, channel `c`. -/
def xg (x : SX.Idx → EReal) (γ : SG.Idx → EReal) (b : Fin 8) (n : Fin 8192) (c : Fin 512) : EReal :=
  x (ix3 b n c) * γ (ix2 b c)

/-- The reciprocal root of a row's sum of squares plus the small constant. -/
def rs (x : SX.Idx → EReal) (γ : SG.Idx → EReal) (b : Fin 8) (n : Fin 8192) : EReal :=
  Ideal.rsqrt ((∑ k : Fin 512, xg x γ b n k * xg x γ b n k) + eps)

/-- The row's product with row `o` of `w`, plus the bias. -/
def pre (x : SX.Idx → EReal) (γ : SG.Idx → EReal) (w : SW.Idx → EReal) (bias : SB.Idx → EReal)
    (b : Fin 8) (n : Fin 8192) (o : Fin 512) : EReal :=
  (∑ c : Fin 512, (xg x γ b n c * rs x γ b n) * w (ix2 o c)) + bias (ix1 o)

/-- The leaky rectifier with its gain, in the form "positive: itself; otherwise: times the slope". -/
def act (v : EReal) : EReal :=
  Scalar.select (Ideal.cmp .ogt v zero) v (v * slope) * gain

/-- The whole function of the four arrays. -/
def G (x : SX.Idx → EReal) (γ : SG.Idx → EReal) (w : SW.Idx → EReal) (bias : SB.Idx → EReal) : SX.Idx → EReal :=
  fun i => act (pre x γ w bias (i 0) (i 1) (i 2))

theorem G_ix3 (x : SX.Idx → EReal) (γ : SG.Idx → EReal) (w : SW.Idx → EReal) (bias : SB.Idx → EReal)
    (b : Fin 8) (n : Fin 8192) (o : Fin 512) : G x γ w bias (ix3 b n o) = act (pre x γ w bias b n o) := rfl

/-- The rectifier in the form "non-negative: itself; otherwise: the slope times it" is the same function: the two
    tests differ only at `0`, where `0 · slope = 0`, and the product commutes. -/
theorem rectifier_forms (v : EReal) :
    Scalar.select (Ideal.cmp .oge v zero) v (slope * v) * gain = act v := by
  unfold act Ideal.cmp Scalar.select
  rw [zero_eq]
  by_cases h : (0 : EReal) < v
  · have h' : (0 : EReal) ≤ v := le_of_lt h
    simp [h, h']
  · by_cases h0 : v = 0
    · subst h0; simp
    · have h' : ¬ (0 : EReal) ≤ v := fun hle => h (lt_of_le_of_ne hle (Ne.symm h0))
      simp [h, h', mul_comm]

/-- A sum started from the zero word's value is the sum. -/
theorem zero_add_sum (s : EReal) : zero + s = s := by rw [zero_eq, zero_add]

end Cert.ModLin

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.KerPay.lean ====
/-
  What the kernel's body stores, read at an index of its 1 × 2048 × 512 block.

  The body takes a block `x0` of 2048 rows of 512 channels, the modulation's row `x1` (1 × 1 × 512), the transposed
  weight `x2` (512 × 512, entry `(c, o)`) and the bias row `x3`. It scales each row channel by channel (`s5`), divides
  the row by its root sum of squares (`s13`: the lane sum of the squares, plus the small constant, under a reciprocal
  square root laid back along the row), multiplies the rows into `x2` and adds the bias (`s21`; the product into a zero
  accumulator is the plain sum over the 512 channels, and the change of float format is the identity), and applies the
  leaky rectifier with its gain. Read at `(0, r, o)` this is the specification's `act` of row `r`'s sum against column
  `o` (`pay_apply`), for any names `X`, `Γ`, `W`, `Bv` of the four blocks' entries.
-/
import proofs.«161681_j86079734546951_2_alg».proof.Proof.Gen.KernelIdeal.Skeleton
import proofs.«161681_j86079734546951_2_alg».proof.Proof.Spec
import proofs.«161681_j86079734546951_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KerValue

open Cert.KernelIdeal Cert.KernelIdeal.Gen Idealize.ShloMosaic Idealize.ShloMosaic.ValueIdx Cert.ModLin

/-- The block product's dimension numbers: rows × channels times channels × outputs. -/
abbrev DK : DotDims S2048x512 S512x512 S2048x512 := dot_S2048x512_S512x512_S2048x512_1_0_0_1_n_n

/-! ## The product's operand indices, coordinate by coordinate -/

theorem lhs_0 (i : S2048x512.Idx) (q : DK.contr.Idx) : (DK.lhsIdx i q 0).val = (i 0).val := by
  unfold DotDims.lhsIdx
  rw [dif_neg (show ¬(0 : Fin S2048x512.rank) ∈ DK.lhsBatch by decide), dif_pos (show (0 : Fin S2048x512.rank) ∈ DK.lhsNonContracting by decide)]
  rfl

theorem lhs_1 (i : S2048x512.Idx) (q : DK.contr.Idx) : (DK.lhsIdx i q 1).val = (q ⟨0, by decide⟩).val :=
  DK.lhsIdx_val_of_single rfl i q

theorem rhs_0 (i : S2048x512.Idx) (q : DK.contr.Idx) : (DK.rhsIdx i q 0).val = (q ⟨0, by decide⟩).val :=
  DK.rhsIdx_val_of_single rfl i q

theorem rhs_1 (i : S2048x512.Idx) (q : DK.contr.Idx) : (DK.rhsIdx i q 1).val = (i 1).val := by
  unfold DotDims.rhsIdx
  rw [dif_neg (show ¬(1 : Fin S512x512.rank) ∈ DK.rhsBatch by decide), dif_pos (show (1 : Fin S512x512.rank) ∈ DK.rhsNonContracting by decide)]
  rfl

/-- The block product into a zero accumulator, at row `r` and output `o`: the sum over the channels. -/
theorem matmul_at (l : FVec Ideal S2048x512 .bf16) (rr : FVec Ideal S512x512 .bf16) (r : Fin 2048) (o : Fin 512) :
    matmul DK none l rr (constant (F := Ideal) S2048x512 .f32 0x00000000#32) (ix2 r o)
      = ∑ k : Fin 512, l (ix2 r k) * rr (ix2 k o) := by
  simp only [matmul]
  rw [Ideal.matmul_constant_zero_apply, ← Equiv.sum_comp (contrEquiv1 DK 512 rfl rfl).symm]
  refine Finset.sum_congr rfl fun k _ => ?_
  have hk := contrEquiv1_symm_val DK 512 rfl rfl k
  have el : DK.lhsIdx (ix2 r o) ((contrEquiv1 DK 512 rfl rfl).symm k) = ix2 r k := funext fun a => Fin.ext (by
    match a with
    | ⟨0, _⟩ => exact lhs_0 _ _
    | ⟨1, _⟩ => exact (lhs_1 _ _).trans hk)
  have er : DK.rhsIdx (ix2 r o) ((contrEquiv1 DK 512 rfl rfl).symm k) = ix2 k o := funext fun a => Fin.ext (by
    match a with
    | ⟨0, _⟩ => exact (rhs_0 _ _).trans hk
    | ⟨1, _⟩ => exact rhs_1 _ _)
  rw [el, er]

/-! ## The body's stages -/

/-- The block scaled channel by channel. -/
def s5 (x0 : Vec Ideal S1x2048x512 .f32) (x1 : Vec Ideal S1x1x512 .f32) : FVec Ideal S2048x512 .f32 :=
  mulf (shapeCast S2048x512 x0 shapeCasts_S1x2048x512_S2048x512)
    (broadcastTo S2048x512 (shapeCast S1x512 x1 shapeCasts_S1x1x512_S1x512) broadcasts_S1x512_S2048x512)

/-- Each row divided by its root sum of squares. -/
def s13 (x0 : Vec Ideal S1x2048x512 .f32) (x1 : Vec Ideal S1x1x512 .f32) : FVec Ideal S2048x512 .f32 :=
  mulf (s5 x0 x1) (broadcastTo S2048x512
    (rsqrt (addf
      (shapeCast S2048x1
        (multiReduction .add [1] S2048 (mulf (s5 x0 x1) (s5 x0 x1)) 0x00000000#32 reduces_S2048x512_S2048 (.inl rfl) rfl)
        shapeCasts_S2048_S2048x1)
      (broadcast S2048x1 (Scalar.ofBits (F := Ideal) .f32 0x322BCC77#32))))
    broadcasts_S2048x1_S2048x512)

/-- The rows' product with the transposed weight, plus the bias. -/
def s21 (x0 : Vec Ideal S1x2048x512 .f32) (x1 : Vec Ideal S1x1x512 .f32) (x2 : Vec Ideal S512x512 .bf16)
    (x3 : Vec Ideal S1x512 .f32) : FVec Ideal S2048x512 .f32 :=
  addf
    (matmul DK none (truncf .bf16 (s13 x0 x1) bitsLt_bf16_f32)
      (shapeCast S512x512 x2 shapeCasts_S512x512_S512x512 : FVec Ideal S512x512 .bf16)
      (constant (F := Ideal) S2048x512 .f32 0x00000000#32))
    (broadcastTo S2048x512 (shapeCast S1x512 x3 shapeCasts_S1x512_S1x512) broadcasts_S1x512_S2048x512)

/-- The body's stored value is the rectifier of `s21`, laid out with a leading unit axis. -/
theorem pay_eq (x0 : Vec Ideal S1x2048x512 .f32) (x1 : Vec Ideal S1x1x512 .f32) (x2 : Vec Ideal S512x512 .bf16)
    (x3 : Vec Ideal S1x512 .f32) :
    k0_pay1 x0 x1 x2 x3
      = shapeCast S1x2048x512
          (mulf
            (select (cmpf .ogt (s21 x0 x1 x2 x3) (broadcast S2048x512 (Scalar.ofBits (F := Ideal) .f32 0x00000000#32)))
              (s21 x0 x1 x2 x3)
              (mulf (s21 x0 x1 x2 x3) (broadcast S2048x512 (Scalar.ofBits (F := Ideal) .f32 0x3E4CCCCD#32))))
            (broadcast S2048x512 (Scalar.ofBits (F := Ideal) .f32 0x3FB504F3#32)))
          shapeCasts_S2048x512_S1x2048x512 := rfl

theorem s5_apply (x0 : Vec Ideal S1x2048x512 .f32) (x1 : Vec Ideal S1x1x512 .f32) (r : Fin 2048) (c : Fin 512) :
    s5 x0 x1 (ix2 r c) = x0 (ix3 (0 : Fin 1) r c) * x1 (ix3 (0 : Fin 1) (0 : Fin 1) c) := by
  unfold s5
  rw [mulf_apply, shapeCast_1ab_ab_apply, broadcastTo_1b_ab_apply, shapeCast_1ab_ab_apply]

theorem s13_apply (x0 : Vec Ideal S1x2048x512 .f32) (x1 : Vec Ideal S1x1x512 .f32) (r : Fin 2048) (c : Fin 512) :
    s13 x0 x1 (ix2 r c)
      = s5 x0 x1 (ix2 r c) * Ideal.rsqrt ((∑ k : Fin 512, s5 x0 x1 (ix2 r k) * s5 x0 x1 (ix2 r k)) + eps) := by
  unfold s13
  rw [mulf_apply, Cert.LibColumns.broadcastTo_a1_ab_apply]
  show _ * Ideal.rsqrt (shapeCast S2048x1 _ _ (ix2 r (0 : Fin 1)) + Ideal.ofBits .f32 0x322BCC77#32) = _
  rw [Cert.LibColumns.shapeCast_a_a1_apply]
  exact congrArg (fun t => s5 x0 x1 (ix2 r c) * Ideal.rsqrt (t + eps))
    (Cert.LibColumns.rowSum_apply (n := 2048) (m := 512) (mulf (s5 x0 x1) (s5 x0 x1)) 0x00000000#32
      reduces_S2048x512_S2048 (.inl rfl) rfl r)

theorem s21_apply (x0 : Vec Ideal S1x2048x512 .f32) (x1 : Vec Ideal S1x1x512 .f32) (x2 : Vec Ideal S512x512 .bf16)
    (x3 : Vec Ideal S1x512 .f32) (r : Fin 2048) (o : Fin 512) :
    s21 x0 x1 x2 x3 (ix2 r o) = (∑ k : Fin 512, s13 x0 x1 (ix2 r k) * x2 (ix2 k o)) + x3 (ix2 (0 : Fin 1) o) := by
  unfold s21
  rw [addf_apply, matmul_at, broadcastTo_1b_ab_apply, shapeCast_self, shapeCast_self]
  rfl

/-- The stored value at `(0, r, o)`, over any names of the blocks' entries. -/
theorem pay_apply (x0 : Vec Ideal S1x2048x512 .f32) (x1 : Vec Ideal S1x1x512 .f32) (x2 : Vec Ideal S512x512 .bf16)
    (x3 : Vec Ideal S1x512 .f32)
    (X : Fin 2048 → Fin 512 → EReal) (Γ : Fin 512 → EReal) (W : Fin 512 → Fin 512 → EReal) (Bv : Fin 512 → EReal)
    (h0 : ∀ r c, x0 (ix3 (0 : Fin 1) r c) = X r c) (h1 : ∀ c, x1 (ix3 (0 : Fin 1) (0 : Fin 1) c) = Γ c)
    (h2 : ∀ k o, x2 (ix2 k o) = W o k) (h3 : ∀ o, x3 (ix2 (0 : Fin 1) o) = Bv o)
    (u : Fin 1) (r : Fin 2048) (o : Fin 512) :
    k0_pay1 x0 x1 x2 x3 (ix3 u r o)
      = act ((∑ c : Fin 512,
          ((X r c * Γ c) * Ideal.rsqrt ((∑ k : Fin 512, (X r k * Γ k) * (X r k * Γ k)) + eps)) * W o c) + Bv o) := by
  rw [pay_eq, shapeCast_ab_1ab_apply]
  show act (s21 x0 x1 x2 x3 (ix2 r o)) = _
  rw [s21_apply]
  simp only [s13_apply, s5_apply, h0, h1, h2, h3]

end Cert.KernelIdeal.KerValue

end
-- ==== Proof.KerBlocks.lean ====
/-
  From the grid's blocks to the whole result array.

  The grid has 32 points `t`; point `t` works on batch `t / 4` and on rows `(t % 4) · 2048 … + 2047` of that batch. The
  input's and the result's blocks are those rows; the modulation's block is row `t / 4` of the modulation; the weight and
  the bias are staged whole. So what point `t` writes back is block `t` of the specification `G` of the argument arrays
  (`flushed_eq`), the 32 blocks tile the result (`cover`), and the result array ends holding `G` (`final`, `run`).
-/
import proofs.«161681_j86079734546951_2_alg».proof.Proof.Gen.KernelIdeal.Value
import proofs.«161681_j86079734546951_2_alg».proof.Proof.KerTerm
import proofs.«161681_j86079734546951_2_alg».proof.Proof.KerPay
import proofs.«161681_j86079734546951_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.KernelIdeal.KerValue

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.ModLin
open Idealize.ShloMosaic.Pipeline (Dat)

variable (m : (ℓ : Loc nD τ sig) → Buf (Elt Ideal) ℓ) (ρ : Dev nD → PrngReg)

/-! ## The staged arrays as the grid finds them -/

/-- The modulation and the normalized weight of the launch contents. -/
abbrev gam (c : Dev nD) : FVec Ideal S8x512 .f32 :=
  gammaK (m ((c : Thread nD τ).loc main_arg1)) (m ((c : Thread nD τ).loc main_arg3)) (m ((c : Thread nD τ).loc main_arg4))
abbrev wn (c : Dev nD) : FVec Ideal S512x512 .f32 := wK (m ((c : Thread nD τ).loc main_arg2))

theorem V_v7 (c : Dev nD) : (V m c main_v7 : S8x1x512.Idx → EReal) = arrG (gam m c) := by
  dsimp only [Gen.V, Gen.hostOps0]; after_results; rfl

theorem V_v19 (c : Dev nD) : (V m c main_v19 : S512x512.Idx → EReal) = arrW (wn m c) := by
  dsimp only [Gen.V, Gen.hostOps0]; after_results; rfl

theorem V_v20 (c : Dev nD) : (V m c main_v20 : S1x512.Idx → EReal) = arrB (m ((c : Thread nD τ).loc main_arg5)) := by
  dsimp only [Gen.V, Gen.hostOps0]; after_results; rfl

/-- The three layouts read at an index. -/
theorem arrG_apply (γ : FVec Ideal S8x512 .f32) (b : Fin 8) (u : Fin 1) (cc : Fin 512) :
    arrG γ (ix3 b u cc) = γ (ix2 b cc) := by
  unfold arrG
  refine shapeCast_apply γ _ (ix3 b u cc) (ix2 b cc) ?_
  rw [Shape.rowMajor_val_two, Shape.rowMajor_val_three]
  show b.val * 512 + cc.val = (b.val * 1 + u.val) * 512 + cc.val
  have := u.isLt
  omega

theorem arrW_apply (w : FVec Ideal S512x512 .f32) (k o : Fin 512) : arrW w (ix2 k o) = w (ix2 o k) := by
  unfold arrW
  rw [truncf_apply, transpose_ix2_apply]

theorem arrB_apply (bias : FVec Ideal S512 .f32) (u : Fin 1) (o : Fin 512) : arrB bias (ix2 u o) = bias (ix1 o) := by
  unfold arrB
  rw [shapeCast_a_1a_apply]

/-! ## The grid's index maps -/

theorem hz3 : (![0, 0, 0] : Fin 3 → Nat) = fun _ => 0 := funext fun a => by fin_cases a <;> rfl
theorem hz2 : (![0, 0] : Fin 2 → Nat) = fun _ => 0 := funext fun a => by fin_cases a <;> rfl

/-- Every window's block index at every point, decided over the 32 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0 :=
  (by decide +kernel : ∀ t : Fin grid0.N, _)

theorem t_lt (t : Fin cfg0.N) : t.val < 32 := lt_of_lt_of_eq t.isLt N_0

/-- Point `t`'s batch, and the row of that batch its block's row `r` is. -/
def bOf (t : Fin cfg0.N) : Fin 8 := ⟨t.val / 4, by have := t_lt t; omega⟩
def rowOf (t : Fin cfg0.N) (r : Fin 2048) : Fin 8192 := ⟨t.val % 4 * 2048 + r.val, by have := r.isLt; omega⟩

/-! ## The input windows' blocks read at an index -/

theorem iblk0_at (c : Dev nD) (t : Fin cfg0.N) (r : Fin 2048) (cc : Fin 512) :
    (iblk m c 0 t : Vec Ideal S1x2048x512 .f32) (ix3 (0 : Fin 1) r cc)
      = (m ((c : Thread nD τ).loc main_arg0) : S8x8192x512.Idx → EReal) (ix3 (bOf t) (rowOf t r) cc) := by
  obtain ⟨e0, e1, e2, -⟩ := idx_facts t
  unfold iblk
  rw [View.read_apply]
  show (V m c main_arg0 : S8x8192x512.Idx → EReal) _ = _
  rw [V_main_arg0]
  refine congrArg _ (funext fun a => Fin.ext ?_)
  match a with
  | ⟨0, _⟩ => show win0_0.index t (0 : Fin 3) * 1 + 1 * 0 = t.val / 4; omega
  | ⟨1, _⟩ => show win0_0.index t (1 : Fin 3) * 2048 + 1 * r.val = t.val % 4 * 2048 + r.val; omega
  | ⟨2, _⟩ => show win0_0.index t (2 : Fin 3) * 512 + 1 * cc.val = cc.val; omega

theorem iblk1_at (c : Dev nD) (t : Fin cfg0.N) (cc : Fin 512) :
    (iblk m c 1 t : Vec Ideal S1x1x512 .f32) (ix3 (0 : Fin 1) (0 : Fin 1) cc) = gam m c (ix2 (bOf t) cc) := by
  obtain ⟨-, -, -, e0, e1, e2, -⟩ := idx_facts t
  unfold iblk
  rw [View.read_apply]
  show (V m c main_v7 : S8x1x512.Idx → EReal) _ = _
  rw [V_v7]
  refine Eq.trans (congrArg _ (funext fun a => Fin.ext ?_)) (arrG_apply (gam m c) (bOf t) (0 : Fin 1) cc)
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 512 + 1 * cc.val = cc.val; omega

theorem iblk2_at (c : Dev nD) (t : Fin cfg0.N) (k o : Fin 512) :
    (iblk m c 2 t : Vec Ideal S512x512 .bf16) (ix2 k o) = wn m c (ix2 o k) := by
  obtain ⟨-, -, -, -, -, -, e0, e1, -⟩ := idx_facts t
  unfold iblk
  rw [View.read_apply]
  show (V m c main_v19 : S512x512.Idx → EReal) _ = _
  rw [V_v19]
  refine Eq.trans (congrArg _ (funext fun a => Fin.ext ?_)) (arrW_apply (wn m c) k o)
  match a with
  | ⟨0, _⟩ => show win0_2.index t (0 : Fin 2) * 512 + 1 * k.val = k.val; omega
  | ⟨1, _⟩ => show win0_2.index t (1 : Fin 2) * 512 + 1 * o.val = o.val; omega

theorem iblk3_at (c : Dev nD) (t : Fin cfg0.N) (o : Fin 512) :
    (iblk m c 3 t : Vec Ideal S1x512 .f32) (ix2 (0 : Fin 1) o) = (m ((c : Thread nD τ).loc main_arg5) : S512.Idx → EReal) (ix1 o) := by
  obtain ⟨-, -, -, -, -, -, -, -, e0, e1, -⟩ := idx_facts t
  unfold iblk
  rw [View.read_apply]
  show (V m c main_v20 : S1x512.Idx → EReal) _ = _
  rw [V_v20]
  refine Eq.trans (congrArg _ (funext fun a => Fin.ext ?_)) (arrB_apply _ (0 : Fin 1) o)
  match a with
  | ⟨0, _⟩ => show win0_3.index t (0 : Fin 2) * 1 + 1 * 0 = 0; omega
  | ⟨1, _⟩ => show win0_3.index t (1 : Fin 2) * 512 + 1 * o.val = o.val; omega

/-! ## What a point writes back, the cover, the array -/

/-- The specification of the launch contents. -/
abbrev spec (c : Dev nD) : S8x8192x512.Idx → EReal :=
  G (m ((c : Thread nD τ).loc main_arg0)) (gam m c) (wn m c) (m ((c : Thread nD τ).loc main_arg5))

/-- Point `t` writes back block `t` of the specification. -/
theorem flushed_eq (c : Dev nD) (t : Fin cfg0.N) :
    (dats m 0 c).flushed 4 t = ((cfg0.win 4).blk t).view.read (Elt Ideal) (spec m c) := by
  rw [Value.flushed4]
  unfold out0_4
  rw [View.canon_unit_zero hz3]
  simp only [View.ld_unit_zero (S := S1x2048x512) hz3, View.ld_unit_zero (S := S1x1x512) hz3,
    View.ld_unit_zero (S := S512x512) hz2, View.ld_unit_zero (S := S1x512) hz2]
  show (k0_pay1 (iblk m c 0 t) (iblk m c 1 t) (iblk m c 2 t) (iblk m c 3 t) : S1x2048x512.Idx → EReal)
      = fun y : S1x2048x512.Idx => spec m c (((cfg0.win 4).blk t).view.emb y)
  funext y
  obtain ⟨u, r, o, rfl⟩ : ∃ (u : Fin 1) (r : Fin 2048) (o : Fin 512), y = ix3 u r o := ⟨y 0, y 1, y 2, eq_ix3 y⟩
  obtain ⟨-, -, -, -, -, -, -, -, -, -, e0, e1, e2⟩ := idx_facts t
  have hemb : (((cfg0.win 4).blk t).view.emb (ix3 u r o) : S8x8192x512.Idx) = ix3 (bOf t) (rowOf t r) o :=
    funext fun a => Fin.ext (by
      match a with
      | ⟨0, _⟩ => show win0_4.index t (0 : Fin 3) * 1 + 1 * u.val = t.val / 4; have := u.isLt; omega
      | ⟨1, _⟩ => show win0_4.index t (1 : Fin 3) * 2048 + 1 * r.val = t.val % 4 * 2048 + r.val; omega
      | ⟨2, _⟩ => show win0_4.index t (2 : Fin 3) * 512 + 1 * o.val = o.val; omega)
  refine (pay_apply (iblk m c 0 t) (iblk m c 1 t) (iblk m c 2 t) (iblk m c 3 t)
    (fun r cc => (m ((c : Thread nD τ).loc main_arg0) : S8x8192x512.Idx → EReal) (ix3 (bOf t) (rowOf t r) cc))
    (fun cc => gam m c (ix2 (bOf t) cc)) (fun o k => wn m c (ix2 o k))
    (fun o => (m ((c : Thread nD τ).loc main_arg5) : S512.Idx → EReal) (ix1 o))
    (iblk0_at m c t) (iblk1_at m c t) (iblk2_at m c t) (iblk3_at m c t) u r o).trans ?_
  refine Eq.trans ?_ (congrArg (spec m c) hemb).symm
  rfl

/-- An index is in point `t`'s block iff each coordinate is in the block's range. -/
theorem mem_blk (t : Fin cfg0.N) (i : S8x8192x512.Idx) :
    i ∈ ((cfg0.win 4).blk t).view.set ↔ ∀ a : Fin 3, win0_4.index t a * S1x2048x512.size a ≤ (i a).val
      ∧ (i a).val < win0_4.index t a * S1x2048x512.size a + S1x2048x512.size a := by
  show i ∈ ((View.whole main_v21).slice (win0_4.rect t)).set ↔ _
  rw [View.set_slice_whole, Rect.mem_set_unit]
  exact Iff.rfl

/-- The 32 blocks tile the result: index `(b, n, o)` is in the block of point `4 b + n / 2048`. -/
theorem cover (i : S8x8192x512.Idx) :
    ∃ t : Fin cfg0.N, (cfg0.win 4).flush t = true ∧ i ∈ ((cfg0.win 4).blk t).view.set := by
  have h0 : (i 0).val < 8 := (i 0).isLt
  have h1 : (i 1).val < 8192 := (i 1).isLt
  have h2 : (i 2).val < 512 := (i 2).isLt
  obtain ⟨t, ht⟩ : ∃ t : Fin cfg0.N, t.val = (i 0).val * 4 + (i 1).val / 2048 :=
    ⟨⟨(i 0).val * 4 + (i 1).val / 2048, lt_of_lt_of_eq (by omega : (i 0).val * 4 + (i 1).val / 2048 < 32) N_0.symm⟩, rfl⟩
  obtain ⟨-, -, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 512 ≤ (i 2).val ∧ (i 2).val < win0_4.index t (2 : Fin 3) * 512 + 512; omega

/-- The result array after the run is the specification of the launch contents. -/
theorem final (c : Dev nD) : (dats m 0 c).arrAt 4 cfg0.N = spec m c :=
  (dats m 0 c).arrAt_eq_of_cover 4 (spec m c) (fun t _ => flushed_eq m c t) cover

/-- Every weakly fair execution terminates with the result array at the specification and the arguments unchanged. -/
theorem run : θ_run defs (onTc (τ := τ) (main (F := Ideal))) ⟨m, fun _ => 0, ρ⟩ fun r => ∀ c : Dev nD,
      r.2.mem ((c : Thread nD τ).loc main_v21) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KerValue

end
-- ==== Proof.RefTerm.lean ====
/-
  The reference program's result as one term of its argument arrays, cut into named stages.

  `gammaR` is the modulation (the latent times the transposed, scaled modulation matrix, plus the bias laid along the
  rows); `wR` the weight scaled and then each row divided by its root sum of squares; `rows` the input times the
  modulation of its batch, laid out as 65536 rows of 512 channels; `rowsN` each such row divided by its root sum of squares;
  `preR` the rows' product with the transposed weight plus the bias; `tailR` the leaky rectifier with its gain, laid
  back out as 8 × 8192 × 512.
-/
import proofs.«161681_j86079734546951_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The modulation, 8 × 512. -/
def gammaR (z : FVec Ideal S8x512 .f32) (modw : FVec Ideal S512x512 .f32) (modb : FVec Ideal S512 .f32) :
    FVec Ideal S8x512 .f32 :=
  addf (Host.dotGeneral (F := Ideal) dot_S8x512_S512x512_S8x512_1_0_0_1_n_n none z
      (transpose S512x512 [1, 0] (mulf modw (broadcastInDim S512x512 ![] bcast_S_S512x512 (constant (F := Ideal) S_ .f32 0x3D3504F3#32)))
        transposes_S512x512_S512x512_1_0))
    (broadcastInDim S8x512 ![0, 1] bcast_S1x512_S8x512_0_1 (broadcastInDim S1x512 ![1] bcast_S512_S1x512_1 modb))

/-- The weight times the scale. -/
def wScaled (weight : FVec Ideal S512x512 .f32) : FVec Ideal S512x512 .f32 :=
  mulf weight (broadcastInDim S512x512 ![] bcast_S_S512x512 (constant (F := Ideal) S_ .f32 0x3D3504F3#32))

/-- The scaled weight, each row divided by its root sum of squares. -/
def wR (weight : FVec Ideal S512x512 .f32) : FVec Ideal S512x512 .f32 :=
  mulf (wScaled weight) (broadcastInDim S512x512 ![0, 1] bcast_S512x1_S512x512_0_1
    (Host.rsqrt (F := Ideal) (addf
      (broadcastInDim S512x1 ![0] bcast_S512_S512x1_0
        (Host.reduceAdd (F := Ideal) (mulf (wScaled weight) (wScaled weight)) (constant (F := Ideal) S_ .f32 0x00000000#32) reducesTo_S512x512_S512_d1 h_S_))
      (broadcastInDim S512x1 ![] bcast_S_S512x1 (constant (F := Ideal) S_ .f32 0x322BCC77#32)))))

/-- The modulated input as 65536 rows. -/
def rows (x : FVec Ideal S8x8192x512 .f32) (γ : FVec Ideal S8x512 .f32) : FVec Ideal S65536x512 .f32 :=
  shapeCast S65536x512
    (mulf x (broadcastInDim S8x8192x512 ![0, 1, 2] bcast_S8x1x512_S8x8192x512_0_1_2
      (broadcastInDim S8x1x512 ![0, 2] bcast_S8x512_S8x1x512_0_2 γ)))
    shapeCasts_S8x8192x512_S65536x512

/-- Each row divided by its root sum of squares. -/
def rowsN (x : FVec Ideal S8x8192x512 .f32) (γ : FVec Ideal S8x512 .f32) : FVec Ideal S65536x512 .f32 :=
  mulf (rows x γ) (broadcastInDim S65536x512 ![0, 1] bcast_S65536x1_S65536x512_0_1
    (Host.rsqrt (F := Ideal) (addf
      (broadcastInDim S65536x1 ![0] bcast_S65536_S65536x1_0
        (Host.reduceAdd (F := Ideal) (mulf (rows x γ) (rows x γ)) (constant (F := Ideal) S_ .f32 0x00000000#32) reducesTo_S65536x512_S65536_d1 h_S_))
      (broadcastInDim S65536x1 ![] bcast_S_S65536x1 (constant (F := Ideal) S_ .f32 0x322BCC77#32)))))

/-- The rows' product with the transposed weight, plus the bias. -/
def preR (x : FVec Ideal S8x8192x512 .f32) (γ : FVec Ideal S8x512 .f32) (w : FVec Ideal S512x512 .f32)
    (bias : FVec Ideal S512 .f32) : FVec Ideal S65536x512 .f32 :=
  addf (Host.dotGeneral (F := Ideal) dot_S65536x512_S512x512_S65536x512_1_0_0_1_n_n none (rowsN x γ)
      (transpose S512x512 [1, 0] w transposes_S512x512_S512x512_1_0))
    (broadcastInDim S65536x512 ![0, 1] bcast_S1x512_S65536x512_0_1 (broadcastInDim S1x512 ![1] bcast_S512_S1x512_1 bias))

/-- The rectifier with its gain, and the result laid back out. -/
def tailR (x : FVec Ideal S8x8192x512 .f32) (γ : FVec Ideal S8x512 .f32) (w : FVec Ideal S512x512 .f32)
    (bias : FVec Ideal S512 .f32) : FVec Ideal S8x8192x512 .f32 :=
  shapeCast S8x8192x512
    (mulf
      (select
        (cmpf .oge (preR x γ w bias) (broadcastInDim S65536x512 ![] bcast_S_S65536x512 (constant (F := Ideal) S_ .f32 0x00000000#32)))
        (preR x γ w bias)
        (mulf (broadcastInDim S65536x512 ![] bcast_S_S65536x512 (id (constant (F := Ideal) S_ .f32 0x3E4CCCCD#32))) (preR x γ w bias)))
      (broadcastInDim S65536x512 ![] bcast_S_S65536x512 (constant (F := Ideal) S_ .f32 0x3FB504F3#32)))
    shapeCasts_S65536x512_S8x8192x512

end Cert.ReferenceIdeal.RefValue

end
-- ==== Proof.RefRead.lean ====
/-
  The reference's stage terms read at an index.

  The reference lays the 8 × 8192 × 512 input out as 65536 rows of 512 channels; a recast keeps the row-major position,
  so row `b · 8192 + n` of the flat layout is row `(b, n)` of the batched one. Stage by stage — the modulated rows, the
  rows divided by their root sum of squares, the product with the transposed weight plus the bias, the rectifier — the
  reference's term at such an index is the specification's value at `(b, n, ·)`.
-/
import proofs.«161681_j86079734546951_2_alg».proof.Proof.Spec
import proofs.«161681_j86079734546951_2_alg».proof.Proof.RefTerm
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The flat row of batch `b`, row `n`. -/
abbrev rowIx (b : Fin 8) (n : Fin 8192) : Fin 65536 := ⟨b.val * 8192 + n.val, by omega⟩

/-- The modulation spread over the rows of its batch reads, at `(b, n, c)`, the modulation at `(b, c)`. -/
theorem gammaSpread_apply (γ : FVec Ideal S8x512 .f32) (b : Fin 8) (n : Fin 8192) (c : Fin 512) :
    broadcastInDim S8x8192x512 ![0, 1, 2] bcast_S8x1x512_S8x8192x512_0_1_2
      (broadcastInDim S8x1x512 ![0, 2] bcast_S8x512_S8x1x512_0_2 γ) (ix3 b n c) = γ (ix2 b c) := by
  refine (broadcastInDim_apply _ _ _ (ix3 b n c) (ix3 b (0 : Fin 1) c) fun a => ?_).trans ?_
  · match a with
    | ⟨0, _⟩ => rfl
    | ⟨1, _⟩ => rfl
    | ⟨2, _⟩ => rfl
  · refine broadcastInDim_apply _ _ _ (ix3 b (0 : Fin 1) c) (ix2 b c) fun a => ?_
    match a with
    | ⟨0, _⟩ => rfl
    | ⟨1, _⟩ => rfl

/-- The modulated input as flat rows reads, at row `b · 8192 + n` and channel `c`, the modulated input at `(b, n, c)`. -/
theorem rows_apply (x : FVec Ideal S8x8192x512 .f32) (γ : FVec Ideal S8x512 .f32) (b : Fin 8) (n : Fin 8192) (c : Fin 512) :
    rows x γ (ix2 (rowIx b n) c) = Cert.ModLin.xg x γ b n c := by
  unfold rows
  refine (shapeCast_apply _ shapeCasts_S8x8192x512_S65536x512 (ix2 (rowIx b n) c) (ix3 b n c) ?_).trans ?_
  · rw [Shape.rowMajor_val_three, Shape.rowMajor_val_two]
    rfl
  · rw [mulf_apply, gammaSpread_apply]
    rfl

/-- The host's sum of a 65536 × 512 array along its rows, started from the zero word, reads at `r` the sum over `k` of
    the entries `(r, k)`. -/
theorem hostRowSum_apply (src : FVec Ideal S65536x512 .f32) (r : Fin 65536) :
    Host.reduceAdd (F := Ideal) src (constant (F := Ideal) S_ .f32 0x00000000#32) reducesTo_S65536x512_S65536_d1 h_S_ (ix1 r)
      = ∑ k : Fin 512, src (ix2 r k) := by
  show Ideal.hostReduceAdd reducesTo_S65536x512_S65536_d1 src (Ideal.ofBits .f32 0x00000000#32) (ix1 r) = _
  refine (Ideal.hostReduceAdd_single reducesTo_S65536x512_S65536_d1 (by decide) src _ (ix1 r)).trans ?_
  rw [Ideal.ofBits_zero_f32, zero_add]
  refine Finset.sum_congr rfl fun k _ => congrArg src ?_
  funext a
  apply Fin.ext
  match a with
  | ⟨0, _⟩ => rfl
  | ⟨1, _⟩ => rfl

/-- The host's reciprocal root of an array reads, at an index, the reciprocal root of the entry. -/
theorem hostRsqrt_apply {s : Shape} {φ : FTy} (v : FVec Ideal s φ) (i : s.Idx) :
    Host.rsqrt (F := Ideal) v i = Ideal.rsqrt (v i) := rfl

/-- The reciprocal root of each row's sum of squares plus the small constant, spread back over the row: at `(r, c)` it
    is the reciprocal root of `∑ₖ R(r, k)² + ε`. -/
theorem rowScale_apply (R : FVec Ideal S65536x512 .f32) (r : Fin 65536) (c : Fin 512) :
    broadcastInDim S65536x512 ![0, 1] bcast_S65536x1_S65536x512_0_1
      (Host.rsqrt (F := Ideal) (addf
        (broadcastInDim S65536x1 ![0] bcast_S65536_S65536x1_0
          (Host.reduceAdd (F := Ideal) (mulf R R) (constant (F := Ideal) S_ .f32 0x00000000#32) reducesTo_S65536x512_S65536_d1 h_S_))
        (broadcastInDim S65536x1 ![] bcast_S_S65536x1 (constant (F := Ideal) S_ .f32 0x322BCC77#32)))) (ix2 r c)
      = Ideal.rsqrt ((∑ k : Fin 512, R (ix2 r k) * R (ix2 r k)) + Cert.ModLin.eps) := by
  refine (broadcastInDim_apply _ _ _ (ix2 r c) (ix2 r (0 : Fin 1)) fun a => ?_).trans ?_
  · match a with
    | ⟨0, _⟩ => rfl
    | ⟨1, _⟩ => rfl
  · rw [hostRsqrt_apply, addf_apply]
    refine congrArg Ideal.rsqrt (congrArg₂ (· + ·) ?_ ?_)
    · refine (broadcastInDim_apply _ _ _ (ix2 r (0 : Fin 1)) (ix1 r) fun a => ?_).trans ?_
      · match a with
        | ⟨0, _⟩ => rfl
      · exact hostRowSum_apply (mulf R R) r
    · exact broadcastInDim_apply _ _ _ (ix2 r (0 : Fin 1)) ix0 fun a => a.elim0

/-- Each flat row divided by its root sum of squares reads, at row `b · 8192 + n` and channel `c`, the modulated input
    at `(b, n, c)` times the row's reciprocal root. -/
theorem rowsN_apply (x : FVec Ideal S8x8192x512 .f32) (γ : FVec Ideal S8x512 .f32) (b : Fin 8) (n : Fin 8192) (c : Fin 512) :
    rowsN x γ (ix2 (rowIx b n) c) = Cert.ModLin.xg x γ b n c * Cert.ModLin.rs x γ b n := by
  unfold rowsN
  rw [mulf_apply, rowScale_apply, rows_apply]
  unfold Cert.ModLin.rs
  refine congrArg (fun s => Cert.ModLin.xg x γ b n c * Ideal.rsqrt (s + Cert.ModLin.eps)) ?_
  exact Finset.sum_congr rfl fun k _ => by rw [rows_apply]

/-! ## The contraction: the operand indices of the rows' product with the transposed weight -/

/-- The left operand's row is the result's row … -/
theorem lhs_pre_0 (i : S65536x512.Idx) (q : dot_S65536x512_S512x512_S65536x512_1_0_0_1_n_n.contr.Idx) :
    (dot_S65536x512_S512x512_S65536x512_1_0_0_1_n_n.lhsIdx i q 0).val = (i 0).val := by
  unfold DotDims.lhsIdx
  rw [dif_neg (show ¬(0 : Fin S65536x512.rank) ∈ dot_S65536x512_S512x512_S65536x512_1_0_0_1_n_n.lhsBatch by decide), dif_pos (show (0 : Fin S65536x512.rank) ∈ dot_S65536x512_S512x512_S65536x512_1_0_0_1_n_n.lhsNonContracting by decide)]
  rfl
/-- … its column the contracted position; … -/
theorem lhs_pre_1 (i : S65536x512.Idx) (q : dot_S65536x512_S512x512_S65536x512_1_0_0_1_n_n.contr.Idx) :
    (dot_S65536x512_S512x512_S65536x512_1_0_0_1_n_n.lhsIdx i q 1).val = (q ⟨0, by decide⟩).val :=
  dot_S65536x512_S512x512_S65536x512_1_0_0_1_n_n.lhsIdx_val_of_single rfl i q
/-- … the right operand's row is the contracted position … -/
theorem rhs_pre_0 (i : S65536x512.Idx) (q : dot_S65536x512_S512x512_S65536x512_1_0_0_1_n_n.contr.Idx) :
    (dot_S65536x512_S512x512_S65536x512_1_0_0_1_n_n.rhsIdx i q 0).val = (q ⟨0, by decide⟩).val :=
  dot_S65536x512_S512x512_S65536x512_1_0_0_1_n_n.rhsIdx_val_of_single rfl i q
/-- … and its column the result's column. -/
theorem rhs_pre_1 (i : S65536x512.Idx) (q : dot_S65536x512_S512x512_S65536x512_1_0_0_1_n_n.contr.Idx) :
    (dot_S65536x512_S512x512_S65536x512_1_0_0_1_n_n.rhsIdx i q 1).val = (i 1).val := by
  unfold DotDims.rhsIdx
  rw [dif_neg (show ¬(1 : Fin S512x512.rank) ∈ dot_S65536x512_S512x512_S65536x512_1_0_0_1_n_n.rhsBatch by decide), dif_pos (show (1 : Fin S512x512.rank) ∈ dot_S65536x512_S512x512_S65536x512_1_0_0_1_n_n.rhsNonContracting by decide)]
  rfl

/-- The product of 65536 rows with a transposed 512 × 512 matrix reads, at `(r, o)`, the sum over the channels `c` of
    the row's entry `c` times the matrix's entry `(o, c)`. -/
theorem dotRows_apply (L : FVec Ideal S65536x512 .f32) (W : FVec Ideal S512x512 .f32) (r : Fin 65536) (o : Fin 512) :
    Host.dotGeneral (F := Ideal) dot_S65536x512_S512x512_S65536x512_1_0_0_1_n_n none L
        (transpose S512x512 [1, 0] W transposes_S512x512_S512x512_1_0) (ix2 r o)
      = ∑ c : Fin 512, L (ix2 r c) * W (ix2 o c) := by
  simp only [Host.dotGeneral]
  rw [Ideal.dotGeneral_apply, ← Equiv.sum_comp (ValueIdx.contrEquiv1 dot_S65536x512_S512x512_S65536x512_1_0_0_1_n_n 512 rfl rfl).symm]
  refine Finset.sum_congr rfl fun k _ => ?_
  have hk := ValueIdx.contrEquiv1_symm_val dot_S65536x512_S512x512_S65536x512_1_0_0_1_n_n 512 rfl rfl k
  have el : dot_S65536x512_S512x512_S65536x512_1_0_0_1_n_n.lhsIdx (ix2 r o) ((ValueIdx.contrEquiv1 dot_S65536x512_S512x512_S65536x512_1_0_0_1_n_n 512 rfl rfl).symm k) = ix2 r k := funext fun a => Fin.ext (by
    match a with
    | ⟨0, _⟩ => exact lhs_pre_0 _ _
    | ⟨1, _⟩ => exact (lhs_pre_1 _ _).trans hk)
  have er : dot_S65536x512_S512x512_S65536x512_1_0_0_1_n_n.rhsIdx (ix2 r o) ((ValueIdx.contrEquiv1 dot_S65536x512_S512x512_S65536x512_1_0_0_1_n_n 512 rfl rfl).symm k) = ix2 k o := funext fun a => Fin.ext (by
    match a with
    | ⟨0, _⟩ => exact (rhs_pre_0 _ _).trans hk
    | ⟨1, _⟩ => exact rhs_pre_1 _ _)
  rw [el, er, transpose_ix2_apply]

/-- The bias laid along every row reads, at `(r, o)`, the bias of `o`. -/
theorem biasSpread_apply (bias : FVec Ideal S512 .f32) (r : Fin 65536) (o : Fin 512) :
    broadcastInDim S65536x512 ![0, 1] bcast_S1x512_S65536x512_0_1 (broadcastInDim S1x512 ![1] bcast_S512_S1x512_1 bias) (ix2 r o)
      = bias (ix1 o) := by
  refine (broadcastInDim_apply _ _ _ (ix2 r o) (ix2 (0 : Fin 1) o) fun a => ?_).trans ?_
  · match a with
    | ⟨0, _⟩ => rfl
    | ⟨1, _⟩ => rfl
  · refine broadcastInDim_apply _ _ _ (ix2 (0 : Fin 1) o) (ix1 o) fun a => ?_
    match a with
    | ⟨0, _⟩ => rfl

/-- The rows' product with the transposed weight plus the bias reads, at row `b · 8192 + n` and output channel `o`, the
    specification's value before the rectifier. -/
theorem preR_apply (x : FVec Ideal S8x8192x512 .f32) (γ : FVec Ideal S8x512 .f32) (w : FVec Ideal S512x512 .f32)
    (bias : FVec Ideal S512 .f32) (b : Fin 8) (n : Fin 8192) (o : Fin 512) :
    preR x γ w bias (ix2 (rowIx b n) o) = Cert.ModLin.pre x γ w bias b n o := by
  unfold preR
  rw [addf_apply, dotRows_apply, biasSpread_apply]
  unfold Cert.ModLin.pre
  refine congrArg (fun s => s + bias (ix1 o)) ?_
  exact Finset.sum_congr rfl fun c _ => by rw [rowsN_apply]

/-! ## The rectifier and the result laid back out -/

/-- A scalar constant spread over the 65536 × 512 rows reads its word's value everywhere. -/
theorem scalarSpread_apply (wd : BitVec 32) (j : S65536x512.Idx) :
    broadcastInDim S65536x512 ![] bcast_S_S65536x512 (constant (F := Ideal) S_ .f32 wd) j = Ideal.ofBits .f32 wd :=
  broadcastInDim_apply _ _ _ j ix0 fun a => a.elim0

/-- The reference's rectifier with its gain, applied to an array `P` of 65536 × 512 values, reads at an index the
    scalar rectifier "non-negative: itself; otherwise: the slope times it", times the gain, of `P` there. -/
theorem rectR_apply (P : FVec Ideal S65536x512 .f32) (j : S65536x512.Idx) :
    mulf
      (select
        (cmpf .oge P (broadcastInDim S65536x512 ![] bcast_S_S65536x512 (constant (F := Ideal) S_ .f32 0x00000000#32)))
        P
        (mulf (broadcastInDim S65536x512 ![] bcast_S_S65536x512 (id (constant (F := Ideal) S_ .f32 0x3E4CCCCD#32))) P))
      (broadcastInDim S65536x512 ![] bcast_S_S65536x512 (constant (F := Ideal) S_ .f32 0x3FB504F3#32)) j
      = Scalar.select (Ideal.cmp .oge (P j) Cert.ModLin.zero) (P j) (Cert.ModLin.slope * P j) * Cert.ModLin.gain := by
  rw [mulf_apply, select_apply, cmpf_apply, mulf_apply, Ideal.cmpf_def]
  rw [show (id (constant (F := Ideal) S_ .f32 0x3E4CCCCD#32)) = constant (F := Ideal) S_ .f32 0x3E4CCCCD#32 from rfl]
  rw [scalarSpread_apply, scalarSpread_apply, scalarSpread_apply]
  rfl

/-- THE REFERENCE READ AT AN INDEX: its result is the specification. -/
theorem tailR_eq (x : FVec Ideal S8x8192x512 .f32) (γ : FVec Ideal S8x512 .f32) (w : FVec Ideal S512x512 .f32)
    (bias : FVec Ideal S512 .f32) : tailR x γ w bias = Cert.ModLin.G x γ w bias := by
  funext i
  obtain ⟨b, n, o, rfl⟩ : ∃ (b : Fin 8) (n : Fin 8192) (o : Fin 512), i = ix3 b n o := ⟨i 0, i 1, i 2, eq_ix3 i⟩
  rw [Cert.ModLin.G_ix3]
  unfold tailR
  refine (shapeCast_apply _ shapeCasts_S65536x512_S8x8192x512 (ix3 b n o) (ix2 (rowIx b n) o) ?_).trans ?_
  · rw [Shape.rowMajor_val_two, Shape.rowMajor_val_three]
    rfl
  · rw [rectR_apply, preR_apply]
    exact Cert.ModLin.rectifier_forms _

end Cert.ReferenceIdeal.RefValue

end
-- ==== Proof.RefRun.lean ====
/-
  The reference program's run.

  The reference's entry function is a straight line of tensor operations, one of which is a call of the leaky rectifier,
  itself a straight line ending in a call of the three-way selection. Substituting each callee's body at its call (with
  the call's own buffers for the callee's values and the caller's operands for its arguments) gives one list of fifty-two
  operations: forty-one before the call, the rectifier's six and the selection's one, and the four after it. Every weakly
  fair execution of such a list terminates with each buffer at the fold of the operations' results over the launch
  contents. Read at the result buffer, the fold is the composition of the operations' functions along the data flow, which
  is the stage term `tailR` of the arguments' launch contents; read at an argument buffer, which no operation writes, it
  is the launch contents themselves.
-/
import proofs.«161681_j86079734546951_2_alg».proof.Proof.RefTerm
import proofs.«161681_j86079734546951_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The entry function's fifty-two operations in program order, the rectifier's and the selection's listed where they are
    called: the rectifier's argument is the sum of the matrix product and the bias, its slope the constant before the call. -/
abbrev ops : List (HloOp τ sig (Elt F)) :=
  [ nullary main_cst (constant S_ .f32 0x3D3504F3#32),
    unary main_cst main_v0 (broadcastInDim S512x512 ![] bcast_S_S512x512 : (⟨S_, .f32⟩ : BufTy).Contents (Elt F) → (⟨S512x512, .f32⟩ : BufTy).Contents (Elt F)),
    binary main_arg3 main_v0 main_v1 (mulf : (⟨S512x512, .f32⟩ : BufTy).Contents (Elt F) → (⟨S512x512, .f32⟩ : BufTy).Contents (Elt F) → (⟨S512x512, .f32⟩ : BufTy).Contents (Elt F)),
    unary main_v1 main_v2 ((transpose S512x512 [1, 0] · transposes_S512x512_S512x512_1_0) : (⟨S512x512, .f32⟩ : BufTy).Contents (Elt F) → (⟨S512x512, .f32⟩ : BufTy).Contents (Elt F)),
    binary main_arg1 main_v2 main_v3 ((fun l r => Host.dotGeneral dot_S8x512_S512x512_S8x512_1_0_0_1_n_n none l r) : (⟨S8x512, .f32⟩ : BufTy).Contents (Elt F) → (⟨S512x512, .f32⟩ : BufTy).Contents (Elt F) → (⟨S8x512, .f32⟩ : BufTy).Contents (Elt F)),
    unary main_arg4 main_v4 (broadcastInDim S1x512 ![1] bcast_S512_S1x512_1 : (⟨S512, .f32⟩ : BufTy).Contents (Elt F) → (⟨S1x512, .f32⟩ : BufTy).Contents (Elt F)),
    unary main_v4 main_v5 (broadcastInDim S8x512 ![0, 1] bcast_S1x512_S8x512_0_1 : (⟨S1x512, .f32⟩ : BufTy).Contents (Elt F) → (⟨S8x512, .f32⟩ : BufTy).Contents (Elt F)),
    binary main_v3 main_v5 main_v6 (addf : (⟨S8x512, .f32⟩ : BufTy).Contents (Elt F) → (⟨S8x512, .f32⟩ : BufTy).Contents (Elt F) → (⟨S8x512, .f32⟩ : BufTy).Contents (Elt F)),
    unary main_v6 main_v7 (broadcastInDim S8x1x512 ![0, 2] bcast_S8x512_S8x1x512_0_2 : (⟨S8x512, .f32⟩ : BufTy).Contents (Elt F) → (⟨S8x1x512, .f32⟩ : BufTy).Contents (Elt F)),
    unary main_v7 main_v8 (broadcastInDim S8x8192x512 ![0, 1, 2] bcast_S8x1x512_S8x8192x512_0_1_2 : (⟨S8x1x512, .f32⟩ : BufTy).Contents (Elt F) → (⟨S8x8192x512, .f32⟩ : BufTy).Contents (Elt F)),
    binary main_arg0 main_v8 main_v9 (mulf : (⟨S8x8192x512, .f32⟩ : BufTy).Contents (Elt F) → (⟨S8x8192x512, .f32⟩ : BufTy).Contents (Elt F) → (⟨S8x8192x512, .f32⟩ : BufTy).Contents (Elt F)),
    reshape main_v9 main_v10 rfl shapeCasts_S8x8192x512_S65536x512,
    nullary main_cst_0 (constant S_ .f32 0x3D3504F3#32),
    unary main_cst_0 main_v11 (broadcastInDim S512x512 ![] bcast_S_S512x512 : (⟨S_, .f32⟩ : BufTy).Contents (Elt F) → (⟨S512x512, .f32⟩ : BufTy).Contents (Elt F)),
    binary main_arg2 main_v11 main_v12 (mulf : (⟨S512x512, .f32⟩ : BufTy).Contents (Elt F) → (⟨S512x512, .f32⟩ : BufTy).Contents (Elt F) → (⟨S512x512, .f32⟩ : BufTy).Contents (Elt F)),
    binary main_v12 main_v12 main_v13 (mulf : (⟨S512x512, .f32⟩ : BufTy).Contents (Elt F) → (⟨S512x512, .f32⟩ : BufTy).Contents (Elt F) → (⟨S512x512, .f32⟩ : BufTy).Contents (Elt F)),
    nullary main_cst_1 (constant S_ .f32 0x00000000#32),
    binary main_v13 main_cst_1 main_v14 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v14 main_v15 (broadcastInDim S512x1 ![0] bcast_S512_S512x1_0 : (⟨S512, .f32⟩ : BufTy).Contents (Elt F) → (⟨S512x1, .f32⟩ : BufTy).Contents (Elt F)),
    nullary main_cst_2 (constant S_ .f32 0x322BCC77#32),
    unary main_cst_2 main_v16 (broadcastInDim S512x1 ![] bcast_S_S512x1 : (⟨S_, .f32⟩ : BufTy).Contents (Elt F) → (⟨S512x1, .f32⟩ : BufTy).Contents (Elt F)),
    binary main_v15 main_v16 main_v17 (addf : (⟨S512x1, .f32⟩ : BufTy).Contents (Elt F) → (⟨S512x1, .f32⟩ : BufTy).Contents (Elt F) → (⟨S512x1, .f32⟩ : BufTy).Contents (Elt F)),
    unary main_v17 main_v18 (Host.rsqrt : (⟨S512x1, .f32⟩ : BufTy).Contents (Elt F) → (⟨S512x1, .f32⟩ : BufTy).Contents (Elt F)),
    unary main_v18 main_v19 (broadcastInDim S512x512 ![0, 1] bcast_S512x1_S512x512_0_1 : (⟨S512x1, .f32⟩ : BufTy).Contents (Elt F) → (⟨S512x512, .f32⟩ : BufTy).Contents (Elt F)),
    binary main_v12 main_v19 main_v20 (mulf : (⟨S512x512, .f32⟩ : BufTy).Contents (Elt F) → (⟨S512x512, .f32⟩ : BufTy).Contents (Elt F) → (⟨S512x512, .f32⟩ : BufTy).Contents (Elt F)),
    binary main_v10 main_v10 main_v21 (mulf : (⟨S65536x512, .f32⟩ : BufTy).Contents (Elt F) → (⟨S65536x512, .f32⟩ : BufTy).Contents (Elt F) → (⟨S65536x512, .f32⟩ : BufTy).Contents (Elt F)),
    nullary main_cst_3 (constant S_ .f32 0x00000000#32),
    binary main_v21 main_cst_3 main_v22 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    unary main_v22 main_v23 (broadcastInDim S65536x1 ![0] bcast_S65536_S65536x1_0 : (⟨S65536, .f32⟩ : BufTy).Contents (Elt F) → (⟨S65536x1, .f32⟩ : BufTy).Contents (Elt F)),
    nullary main_cst_4 (constant S_ .f32 0x322BCC77#32),
    unary main_cst_4 main_v24 (broadcastInDim S65536x1 ![] bcast_S_S65536x1 : (⟨S_, .f32⟩ : BufTy).Contents (Elt F) → (⟨S65536x1, .f32⟩ : BufTy).Contents (Elt F)),
    binary main_v23 main_v24 main_v25 (addf : (⟨S65536x1, .f32⟩ : BufTy).Contents (Elt F) → (⟨S65536x1, .f32⟩ : BufTy).Contents (Elt F) → (⟨S65536x1, .f32⟩ : BufTy).Contents (Elt F)),
    unary main_v25 main_v26 (Host.rsqrt : (⟨S65536x1, .f32⟩ : BufTy).Contents (Elt F) → (⟨S65536x1, .f32⟩ : BufTy).Contents (Elt F)),
    unary main_v26 main_v27 (broadcastInDim S65536x512 ![0, 1] bcast_S65536x1_S65536x512_0_1 : (⟨S65536x1, .f32⟩ : BufTy).Contents (Elt F) → (⟨S65536x512, .f32⟩ : BufTy).Contents (Elt F)),
    binary main_v10 main_v27 main_v28 (mulf : (⟨S65536x512, .f32⟩ : BufTy).Contents (Elt F) → (⟨S65536x512, .f32⟩ : BufTy).Contents (Elt F) → (⟨S65536x512, .f32⟩ : BufTy).Contents (Elt F)),
    unary main_v20 main_v29 ((transpose S512x512 [1, 0] · transposes_S512x512_S512x512_1_0) : (⟨S512x512, .f32⟩ : BufTy).Contents (Elt F) → (⟨S512x512, .f32⟩ : BufTy).Contents (Elt F)),
    binary main_v28 main_v29 main_v30 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    unary main_arg5 main_v31 (broadcastInDim S1x512 ![1] bcast_S512_S1x512_1 : (⟨S512, .f32⟩ : BufTy).Contents (Elt F) → (⟨S1x512, .f32⟩ : BufTy).Contents (Elt F)),
    unary main_v31 main_v32 (broadcastInDim S65536x512 ![0, 1] bcast_S1x512_S65536x512_0_1 : (⟨S1x512, .f32⟩ : BufTy).Contents (Elt F) → (⟨S65536x512, .f32⟩ : BufTy).Contents (Elt F)),
    binary main_v30 main_v32 main_v33 (addf : (⟨S65536x512, .f32⟩ : BufTy).Contents (Elt F) → (⟨S65536x512, .f32⟩ : BufTy).Contents (Elt F) → (⟨S65536x512, .f32⟩ : BufTy).Contents (Elt F)),
    nullary main_cst_5 (constant S_ .f32 0x3E4CCCCD#32),
    TRef.nullary main_call0.cst (constant S_ .f32 0x00000000#32),
    TRef.unary main_call0.cst main_call0.v0 (broadcastInDim S65536x512 ![] bcast_S_S65536x512),
    TRef.binary (.of main_v33 : TRef sig ⟨S65536x512, .f32⟩) main_call0.v0 main_call0.v1 (cmpf .oge),
    TRef.unary (.of main_cst_5 : TRef sig ⟨S_, .f32⟩) main_call0.v2 id,
    TRef.unary main_call0.v2 main_call0.v3 (broadcastInDim S65536x512 ![] bcast_S_S65536x512),
    TRef.binary main_call0.v3 (.of main_v33 : TRef sig ⟨S65536x512, .f32⟩) main_call0.v4 mulf,
    TRef.ternary main_call0.v1 (.of main_v33 : TRef sig ⟨S65536x512, .f32⟩) main_call0.v4 main_call0.call0.v0 select,
    nullary main_cst_6 (constant S_ .f32 0x3FB504F3#32),
    unary main_cst_6 main_v35 (broadcastInDim S65536x512 ![] bcast_S_S65536x512 : (⟨S_, .f32⟩ : BufTy).Contents (Elt F) → (⟨S65536x512, .f32⟩ : BufTy).Contents (Elt F)),
    binary main_v34 main_v35 main_v36 (mulf : (⟨S65536x512, .f32⟩ : BufTy).Contents (Elt F) → (⟨S65536x512, .f32⟩ : BufTy).Contents (Elt F) → (⟨S65536x512, .f32⟩ : BufTy).Contents (Elt F)),
    reshape main_v36 main_v37 rfl shapeCasts_S65536x512_S8x8192x512 ]

set_option maxRecDepth 1024 in
/-- The entry function is that straight line: the two callees' definitions unfolded at their calls, both sides are one
    chain of steps once the sequencing is reassociated. -/
theorem main_eq (c : Dev nD) : main (F := F) c = seq ops := by
  simp only [main, fn_leaky_relu.body, fn_where.body, seq, bind_assoc, pure_bind]

/-- No buffer and no counter of the signature is scoped to a region. -/
theorem scopedRefs_eq : (Finset.univ.filter fun b : Ref sig .tc => b.isScoped) = ∅ := by decide
theorem scopedSems_eq : (Finset.univ.filter fun sm : SemLoc sig => sm.isScoped .tc) = ∅ := by decide

/-- Every operation reads and writes device buffers only. -/
theorem ops_sub : (ops : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., unary_bufs_sub .., unary_bufs_sub .., binary_bufs_sub .., reshape_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., reshape_bufs_sub ..⟩

attribute [local irreducible] Host.reduceAdd Host.rsqrt in
set_option maxRecDepth 8192 in
set_option maxHeartbeats 400000 in
/-- The fold read at the result buffer is the stage term of the arguments: each operation's result at its own buffer is
    its function of its operands' contents, at any other buffer what was there, so the fold composes the functions along
    the data flow; the rectifier's operations act through typed references whose transports are the identity at these
    buffers, and a reshape's result is the re-indexing itself. The composition is `tailR` over `gammaR` and `wR` by
    computation. The row sums and the reciprocal roots are kept folded meanwhile: the equation never looks inside them. -/
theorem out_eq (V : Valuation τ sig (Elt Ideal)) :
    after ops V (main_v37 : DevRef τ sig)
      = tailR (V (main_arg0 : DevRef τ sig))
          (gammaR (V (main_arg1 : DevRef τ sig)) (V (main_arg3 : DevRef τ sig)) (V (main_arg4 : DevRef τ sig)))
          (wR (V (main_arg2 : DevRef τ sig))) (V (main_arg5 : DevRef τ sig)) := by
  after_results_simp
  rfl

/-- No operation writes argument 0: the fold leaves it as it was. -/
theorem arg0_eq (V : Valuation τ sig (Elt F)) :
    after ops V (main_arg0 : DevRef τ sig) = V (main_arg0 : DevRef τ sig) := by
  after_results_simp

/-- No operation writes argument 1: the fold leaves it as it was. -/
theorem arg1_eq (V : Valuation τ sig (Elt F)) :
    after ops V (main_arg1 : DevRef τ sig) = V (main_arg1 : DevRef τ sig) := by
  after_results_simp

/-- No operation writes argument 2: the fold leaves it as it was. -/
theorem arg2_eq (V : Valuation τ sig (Elt F)) :
    after ops V (main_arg2 : DevRef τ sig) = V (main_arg2 : DevRef τ sig) := by
  after_results_simp

/-- No operation writes argument 3: the fold leaves it as it was. -/
theorem arg3_eq (V : Valuation τ sig (Elt F)) :
    after ops V (main_arg3 : DevRef τ sig) = V (main_arg3 : DevRef τ sig) := by
  after_results_simp

/-- No operation writes argument 4: the fold leaves it as it was. -/
theorem arg4_eq (V : Valuation τ sig (Elt F)) :
    after ops V (main_arg4 : DevRef τ sig) = V (main_arg4 : DevRef τ sig) := by
  after_results_simp

/-- No operation writes argument 5: the fold leaves it as it was. -/
theorem arg5_eq (V : Valuation τ sig (Elt F)) :
    after ops V (main_arg5 : DevRef τ sig) = V (main_arg5 : DevRef τ sig) := by
  after_results_simp

/-- On every device, from any memory with zero counters: every weakly fair execution of the reference terminates with the
    result buffer at the stage term `tailR` of the arguments' launch contents — the modulation `gammaR` of the latent, the
    modulation matrix and its bias; the row-normalised weight `wR` — and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
          = tailR (m ((c.tc : Thread nD τ).loc main_arg0))
              (gammaR (m ((c.tc : Thread nD τ).loc main_arg1)) (m ((c.tc : Thread nD τ).loc main_arg3)) (m ((c.tc : Thread nD τ).loc main_arg4)))
              (wR (m ((c.tc : Thread nD τ).loc main_arg2))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v37).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefValue

end
-- ==== Proof.lean ====
/-
  The kernel and its reference compute one function.

  Both programs first compute, with the same operations, the modulation `γ` (the latent times the transposed, scaled
  modulation matrix, plus its bias) and the weight `w` scaled and divided row by row by its root sum of squares. The kernel
  then walks a grid of 8 × 4 points, each taking 2048 rows of one batch: it scales the rows by that batch's modulation,
  divides each row by its root sum of squares, multiplies by the transposed weight, adds the bias and applies the leaky
  rectifier with its gain. The reference does the same on the whole array laid out as 65536 rows. Read index by index over
  the extended reals, both results are the specification `Cert.ModLin.G` of the input, `γ`, `w` and the bias
  (`Cert.KernelIdeal.KerValue.run`, `Cert.ReferenceIdeal.RefValue.run` with `tailR_eq`): a change of float format is the
  identity, a product into a zero accumulator and a sum started from zero are plain sums, and the two spellings of the
  rectifier differ only at `0`, where both give `0`. No law used needs the inputs to be finite.

  The three frames: the kernel's two are the generated frame runs; the reference's is its run with the result dropped.
  The idealization rewrote nothing, so `preserves` is trivial.
-/
import proofs.«161681_j86079734546951_2_alg».proof.Defs
import proofs.«161681_j86079734546951_2_alg».proof.Proof.Gen.Kernel
import proofs.«161681_j86079734546951_2_alg».proof.Proof.Gen.Kernel.Skeleton
import proofs.«161681_j86079734546951_2_alg».proof.Proof.Gen.Kernel.Launch
import proofs.«161681_j86079734546951_2_alg».proof.Proof.Gen.Kernel.Points
import proofs.«161681_j86079734546951_2_alg».proof.Proof.Gen.Kernel.Frame
import proofs.«161681_j86079734546951_2_alg».proof.Proof.Gen.KernelIdeal
import proofs.«161681_j86079734546951_2_alg».proof.Proof.Gen.KernelIdeal.Skeleton
import proofs.«161681_j86079734546951_2_alg».proof.Proof.Gen.KernelIdeal.Launch
import proofs.«161681_j86079734546951_2_alg».proof.Proof.Gen.KernelIdeal.Points
import proofs.«161681_j86079734546951_2_alg».proof.Proof.Gen.KernelIdeal.Frame
import proofs.«161681_j86079734546951_2_alg».proof.Proof.Gen.KernelIdeal.Value
import proofs.«161681_j86079734546951_2_alg».proof.Proof.Gen.ReferenceIdeal
import proofs.«161681_j86079734546951_2_alg».proof.Proof.Gen.Pre_finite_inputs
import proofs.«161681_j86079734546951_2_alg».proof.Proof.KerBlocks
import proofs.«161681_j86079734546951_2_alg».proof.Proof.RefRead
import proofs.«161681_j86079734546951_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The two programs' modulations are one term of the arguments: the same operations at the same shapes. -/
theorem gamma_eq (z : FVec Ideal Cert.ReferenceIdeal.S8x512 .f32) (modw : FVec Ideal Cert.ReferenceIdeal.S512x512 .f32)
    (modb : FVec Ideal Cert.ReferenceIdeal.S512 .f32) :
    Cert.ReferenceIdeal.RefValue.gammaR z modw modb = Cert.KernelIdeal.KerValue.gammaK z modw modb := rfl

/-- And so are their normalized weights. -/
theorem w_eq (weight : FVec Ideal Cert.ReferenceIdeal.S512x512 .f32) :
    Cert.ReferenceIdeal.RefValue.wR weight = Cert.KernelIdeal.KerValue.wK weight := rfl

/-- From memories agreeing on the arguments both programs end with the specification of those arguments. -/
theorem algebraic : Cert.algebraic_KernelIdeal_ReferenceIdeal := by
  intro m ρ m' ρ' _ hagree
  refine ⟨fun c => Cert.KernelIdeal.KerValue.spec m c, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5⟩ := hagree c
  rw [a0, a1, a2, a3, a4, a5, Cert.ReferenceIdeal.RefValue.tailR_eq, gamma_eq, w_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
